-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x64x64 : Shape := ⟨4, ![128, 32, 64, 64]⟩
abbrev S128x32x1x64 : Shape := ⟨4, ![128, 32, 1, 64]⟩
abbrev S128x32x1x1 : Shape := ⟨4, ![128, 32, 1, 1]⟩
abbrev S_ : Shape := ⟨0, ![]⟩

class Facts : Prop where
  bcast_S_S128x32x64x64 : S_.BroadcastsInDim S128x32x64x64 (![] : Fin 0 → Fin S128x32x64x64.rank)
  reducesTo_S128x32x64x64_S_d0_1_2_3 : S128x32x64x64.ReducesTo [0, 1, 2, 3] S_
  h_S_ : 0 < S_.numel
  bcast_S_S128x32x1x64 : S_.BroadcastsInDim S128x32x1x64 (![] : Fin 0 → Fin S128x32x1x64.rank)
  reducesTo_S128x32x1x64_S_d0_1_2_3 : S128x32x1x64.ReducesTo [0, 1, 2, 3] S_
  bcast_S_S128x32x1x1 : S_.BroadcastsInDim S128x32x1x1 (![] : Fin 0 → Fin S128x32x1x1.rank)
  reducesTo_S128x32x1x1_S_d0_1_2_3 : S128x32x1x1.ReducesTo [0, 1, 2, 3] S_

variable [Facts]

def fn_part1 {F : FTy → Type} [FloatOps F] (main_arg4 : FVec F S128x32x1x64 .f32) (main_arg5 : FVec F S128x32x1x1 .f32) (main_v13 : IVec S_ 1) (main_v16 : IVec S128x32x1x64 1) : IVec S_ 1 :=
  let main_c_5 : IVec S_ 1 := constantI S_ 1 1#1
  let main_v17 : IVec S_ 1 := (fun x v => Host.reduce IntOp.andi x v reducesTo_S128x32x1x64_S_d0_1_2_3 h_S_) main_v16 main_c_5
  let main_v18 : IVec S_ 1 := andi main_v13 main_v17
  let main_v19 : FVec F S128x32x1x64 .f32 := Host.absf main_arg4
  let main_cst_6 : FVec F S_ .f32 := constant S_ .f32 0x7F800000#32
  let main_v20 : FVec F S128x32x1x64 .f32 := broadcastInDim S128x32x1x64 ![] bcast_S_S128x32x1x64 main_cst_6
  let main_v21 : IVec S128x32x1x64 1 := cmpf .olt main_v19 main_v20
  let main_c_7 : IVec S_ 1 := constantI S_ 1 1#1
  let main_v22 : IVec S_ 1 := (fun x v => Host.reduce IntOp.andi x v reducesTo_S128x32x1x64_S_d0_1_2_3 h_S_) main_v21 main_c_7
  let main_v23 : IVec S_ 1 := andi main_v18 main_v22
  let main_v24 : FVec F S128x32x1x1 .f32 := Host.absf main_arg5
  let main_cst_8 : FVec F S_ .f32 := constant S_ .f32 0x7F800000#32
  let main_v25 : FVec F S128x32x1x1 .f32 := broadcastInDim S128x32x1x1 ![] bcast_S_S128x32x1x1 main_cst_8
  let main_v26 : IVec S128x32x1x1 1 := cmpf .olt main_v24 main_v25
  let main_c_9 : IVec S_ 1 := constantI S_ 1 1#1
  let main_v27 : IVec S_ 1 := (fun x v => Host.reduce IntOp.andi x v reducesTo_S128x32x1x1_S_d0_1_2_3 h_S_) main_v26 main_c_9
  let main_v28 : IVec S_ 1 := andi main_v23 main_v27
  main_v28

def fn {F : FTy → Type} [FloatOps F] (main_arg0 : FVec F S128x32x64x64 .f32) (main_arg1 : FVec F S128x32x64x64 .f32) (main_arg2 : FVec F S128x32x1x64 .f32) (main_arg3 : FVec F S128x32x1x64 .f32) (main_arg4 : FVec F S128x32x1x64 .f32) (main_arg5 : FVec F S128x32x1x1 .f32) : IVec S_ 1 :=
  let main_v0 : FVec F S128x32x64x64 .f32 := Host.absf main_arg0
  let main_cst : FVec F S_ .f32 := constant S_ .f32 0x7F800000#32
  let main_v1 : FVec F S128x32x64x64 .f32 := broadcastInDim S128x32x64x64 ![] bcast_S_S128x32x64x64 main_cst
  let main_v2 : IVec S128x32x64x64 1 := cmpf .olt main_v0 main_v1
  let main_c : IVec S_ 1 := constantI S_ 1 1#1
  let main_v3 : IVec S_ 1 := (fun x v => Host.reduce IntOp.andi x v reducesTo_S128x32x64x64_S_d0_1_2_3 h_S_) main_v2 main_c
  let main_v4 : FVec F S128x32x64x64 .f32 := Host.absf main_arg1
  let main_cst_0 : FVec F S_ .f32 := constant S_ .f32 0x7F800000#32
  let main_v5 : FVec F S128x32x64x64 .f32 := broadcastInDim S128x32x64x64 ![] bcast_S_S128x32x64x64 main_cst_0
  let main_v6 : IVec S128x32x64x64 1 := cmpf .olt main_v4 main_v5
  let main_c_1 : IVec S_ 1 := constantI S_ 1 1#1
  let main_v7 : IVec S_ 1 := (fun x v => Host.reduce IntOp.andi x v reducesTo_S128x32x64x64_S_d0_1_2_3 h_S_) main_v6 main_c_1
  let main_v8 : IVec S_ 1 := andi main_v3 main_v7
  let main_v9 : FVec F S128x32x1x64 .f32 := Host.absf main_arg2
  let main_cst_2 : FVec F S_ .f32 := constant S_ .f32 0x7F800000#32
  let main_v10 : FVec F S128x32x1x64 .f32 := broadcastInDim S128x32x1x64 ![] bcast_S_S128x32x1x64 main_cst_2
  let main_v11 : IVec S128x32x1x64 1 := cmpf .olt main_v9 main_v10
  let main_c_3 : IVec S_ 1 := constantI S_ 1 1#1
  let main_v12 : IVec S_ 1 := (fun x v => Host.reduce IntOp.andi x v reducesTo_S128x32x1x64_S_d0_1_2_3 h_S_) main_v11 main_c_3
  let main_v13 : IVec S_ 1 := andi main_v8 main_v12
  let main_v14 : FVec F S128x32x1x64 .f32 := Host.absf main_arg3
  let main_cst_4 : FVec F S_ .f32 := constant S_ .f32 0x7F800000#32
  let main_v15 : FVec F S128x32x1x64 .f32 := broadcastInDim S128x32x1x64 ![] bcast_S_S128x32x1x64 main_cst_4
  let main_v16 : IVec S128x32x1x64 1 := cmpf .olt main_v14 main_v15
  fn_part1 (F := F) main_arg4 main_arg5 main_v13 main_v16
-- ==== Kernel.lean ====
abbrev S128x32x64x64 : Shape := ⟨4, ![128, 32, 64, 64]⟩
abbrev S128x32x1x64 : Shape := ⟨4, ![128, 32, 1, 64]⟩
abbrev S128x32x1x1 : Shape := ⟨4, ![128, 32, 1, 1]⟩
abbrev S4096x64x64 : Shape := ⟨3, ![4096, 64, 64]⟩
abbrev S4096x1x64 : Shape := ⟨3, ![4096, 1, 64]⟩
abbrev S4096x1x1 : Shape := ⟨3, ![4096, 1, 1]⟩
abbrev S64x64x64 : Shape := ⟨3, ![64, 64, 64]⟩
abbrev S64x1x64 : Shape := ⟨3, ![64, 1, 64]⟩
abbrev S64x1x1 : Shape := ⟨3, ![64, 1, 1]⟩
abbrev S64x64 : Shape := ⟨2, ![64, 64]⟩
abbrev S64x1 : Shape := ⟨2, ![64, 1]⟩
abbrev S64x64x1 : Shape := ⟨3, ![64, 64, 1]⟩

abbrev nBuf : Space → Nat
  | .hbm => 18
  | .vmem => 18
  | .smem => 0
  | _ => 0

abbrev bufTy : (tb : Table) → Fin (tcTables nBuf tb) → BufTy
  | .hbm, ⟨0, _⟩ => ⟨S128x32x64x64, .f32⟩
  | .hbm, ⟨1, _⟩ => ⟨S128x32x64x64, .f32⟩
  | .hbm, ⟨2, _⟩ => ⟨S128x32x1x64, .f32⟩
  | .hbm, ⟨3, _⟩ => ⟨S128x32x1x64, .f32⟩
  | .hbm, ⟨4, _⟩ => ⟨S128x32x1x64, .f32⟩
  | .hbm, ⟨5, _⟩ => ⟨S128x32x1x1, .f32⟩
  | .hbm, ⟨6, _⟩ => ⟨S4096x64x64, .f32⟩
  | .hbm, ⟨7, _⟩ => ⟨S4096x64x64, .f32⟩
  | .hbm, ⟨8, _⟩ => ⟨S4096x1x64, .f32⟩
  | .hbm, ⟨9, _⟩ => ⟨S4096x1x64, .f32⟩
  | .hbm, ⟨10, _⟩ => ⟨S4096x1x64, .f32⟩
  | .hbm, ⟨11, _⟩ => ⟨S4096x1x1, .f32⟩
  | .hbm, ⟨12, _⟩ => ⟨S4096x1x64, .f32⟩
  | .hbm, ⟨13, _⟩ => ⟨S4096x64x64, .f32⟩
  | .hbm, ⟨14, _⟩ => ⟨S4096x64x64, .f32⟩
  | .hbm, ⟨15, _⟩ => ⟨S128x32x1x64, .f32⟩
  | .hbm, ⟨16, _⟩ => ⟨S128x32x64x64, .f32⟩
  | .hbm, ⟨17, _⟩ => ⟨S128x32x64x64, .f32⟩
  | .local _ .vmem, ⟨0, _⟩ => ⟨S64x64x64, .f32⟩
  | .local _ .vmem, ⟨1, _⟩ => ⟨S64x64x64, .f32⟩
  | .local _ .vmem, ⟨2, _⟩ => ⟨S64x64x64, .f32⟩
  | .local _ .vmem, ⟨3, _⟩ => ⟨S64x64x64, .f32⟩
  | .local _ .vmem, ⟨4, _⟩ => ⟨S64x1x64, .f32⟩
  | .local _ .vmem, ⟨5, _⟩ => ⟨S64x1x64, .f32⟩
  | .local _ .vmem, ⟨6, _⟩ => ⟨S64x1x64, .f32⟩
  | .local _ .vmem, ⟨7, _⟩ => ⟨S64x1x64, .f32⟩
  | .local _ .vmem, ⟨8, _⟩ => ⟨S64x1x64, .f32⟩
  | .local _ .vmem, ⟨9, _⟩ => ⟨S64x1x64, .f32⟩
  | .local _ .vmem, ⟨10, _⟩ => ⟨S64x1x1, .f32⟩
  | .local _ .vmem, ⟨11, _⟩ => ⟨S64x1x1, .f32⟩
  | .local _ .vmem, ⟨12, _⟩ => ⟨S64x1x64, .f32⟩
  | .local _ .vmem, ⟨13, _⟩ => ⟨S64x1x64, .f32⟩
  | .local _ .vmem, ⟨14, _⟩ => ⟨S64x64x64, .f32⟩
  | .local _ .vmem, ⟨15, _⟩ => ⟨S64x64x64, .f32⟩
  | .local _ .vmem, ⟨16, _⟩ => ⟨S64x64x64, .f32⟩
  | .local _ .vmem, ⟨17, _⟩ => ⟨S64x64x64, .f32⟩
  | _, _ => ⟨S128x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S128x32x64x64_S4096x64x64 : S128x32x64x64.ShapeCasts S4096x64x64
  shapeCasts_S128x32x1x64_S4096x1x64 : S128x32x1x64.ShapeCasts S4096x1x64
  shapeCasts_S128x32x1x1_S4096x1x1 : S128x32x1x1.ShapeCasts S4096x1x1
  inb_S64x1x64_S64x1x64_0_0_0 : ∀ a, (![0, 0, 0] : Fin 3 → Nat) a + S64x1x64.size a ≤ S64x1x64.size a
  h_S64x1x64 : 0 < S64x1x64.numel
  shapeCasts_S64x1x64_S64x64 : S64x1x64.ShapeCasts S64x64
  inb_S64x1x1_S64x1x1_0_0_0 : ∀ a, (![0, 0, 0] : Fin 3 → Nat) a + S64x1x1.size a ≤ S64x1x1.size a
  h_S64x1x1 : 0 < S64x1x1.numel
  shapeCasts_S64x1x1_S64x1 : S64x1x1.ShapeCasts S64x1
  shapeCasts_S64x64_S64x64x1 : S64x64.ShapeCasts S64x64x1
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64 : S64x64x64.ShapeCasts S64x64x64
  broadcasts_S64x64x1_S64x64x64 : S64x64x1.Broadcasts S64x64x64
  reduces_S64x64x64_S64x64 : S64x64x64.Reduces [1] S64x64
  shapeCasts_S64x64_S64x1x64 : S64x64.ShapeCasts S64x1x64
  broadcasts_S64x1x64_S64x64x64 : S64x1x64.Broadcasts S64x64x64
  shapeCasts_S64x1_S64x1x1 : S64x1.ShapeCasts S64x1x1
  broadcasts_S64x1x1_S64x64x64 : S64x1x1.Broadcasts S64x64x64
  shapeCasts_S4096x1x64_S128x32x1x64 : S4096x1x64.ShapeCasts S128x32x1x64
  shapeCasts_S4096x64x64_S128x32x64x64 : S4096x64x64.ShapeCasts S128x32x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x64.size a ≤ S4096x64x64.size a
  hwx0_0 : ∀ i : grid0.Coords, EltTy.bits .f32 = 32 ∨ (Rect.block (s := S4096x64x64) S64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x64.size a ≤ S4096x64x64.size a
  hwx0_1 : ∀ i : grid0.Coords, EltTy.bits .f32 = 32 ∨ (Rect.block (s := S4096x64x64) S64x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1x64.size a ≤ S4096x1x64.size a
  hwx0_2 : ∀ i : grid0.Coords, EltTy.bits .f32 = 32 ∨ (Rect.block (s := S4096x1x64) S64x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1x64.size a ≤ S4096x1x64.size a
  hwx0_3 : ∀ i : grid0.Coords, EltTy.bits .f32 = 32 ∨ (Rect.block (s := S4096x1x64) S64x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1x64.size a ≤ S4096x1x64.size a
  hwx0_4 : ∀ i : grid0.Coords, EltTy.bits .f32 = 32 ∨ (Rect.block (s := S4096x1x64) S64x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1x1.size a ≤ S4096x1x1.size a
  hwx0_5 : ∀ i : grid0.Coords, EltTy.bits .f32 = 32 ∨ (Rect.block (s := S4096x1x1) S64x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1x64.size a ≤ S4096x1x64.size a
  hwx0_6 : ∀ i : grid0.Coords, EltTy.bits .f32 = 32 ∨ (Rect.block (s := S4096x1x64) S64x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x64x64.size a ≤ S4096x64x64.size a
  hwx0_7 : ∀ i : grid0.Coords, EltTy.bits .f32 = 32 ∨ (Rect.block (s := S4096x64x64) S64x64x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x64x64.size a ≤ S4096x64x64.size a
  hwx0_8 : ∀ i : grid0.Coords, EltTy.bits .f32 = 32 ∨ (Rect.block (s := S4096x64x64) S64x64x64.size (cc0_transform_8 i) (hinb0_8 i)).WholeWords (EltTy.packing .f32)

variable [Facts₀]

abbrev win0_0 : Pipeline.Window sig grid0 :=
  Pipeline.Window.ofSpec (Memref.whole main_v0) S64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x1x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S64x1x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S64x64x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S64x64x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128x32x64x64 : Shape := ⟨4, ![128, 32, 64, 64]⟩
abbrev S128x32x1x64 : Shape := ⟨4, ![128, 32, 1, 64]⟩
abbrev S128x32x1x1 : Shape := ⟨4, ![128, 32, 1, 1]⟩

abbrev nBuf : Space → Nat
  | .hbm => 14
  | .vmem => 0
  | .smem => 0
  | _ => 0

abbrev bufTy : (tb : Table) → Fin (tcTables nBuf tb) → BufTy
  | .hbm, ⟨0, _⟩ => ⟨S128x32x64x64, .f32⟩
  | .hbm, ⟨1, _⟩ => ⟨S128x32x64x64, .f32⟩
  | .hbm, ⟨2, _⟩ => ⟨S128x32x1x64, .f32⟩
  | .hbm, ⟨3, _⟩ => ⟨S128x32x1x64, .f32⟩
  | .hbm, ⟨4, _⟩ => ⟨S128x32x1x64, .f32⟩
  | .hbm, ⟨5, _⟩ => ⟨S128x32x1x1, .f32⟩
  | .hbm, ⟨6, _⟩ => ⟨S128x32x1x64, .f32⟩
  | .hbm, ⟨7, _⟩ => ⟨S128x32x1x64, .f32⟩
  | .hbm, ⟨8, _⟩ => ⟨S128x32x64x64, .f32⟩
  | .hbm, ⟨9, _⟩ => ⟨S128x32x64x64, .f32⟩
  | .hbm, ⟨10, _⟩ => ⟨S128x32x64x64, .f32⟩
  | .hbm, ⟨11, _⟩ => ⟨S128x32x64x64, .f32⟩
  | .hbm, ⟨12, _⟩ => ⟨S128x32x64x64, .f32⟩
  | .hbm, ⟨13, _⟩ => ⟨S128x32x1x64, .f32⟩
  | _, _ => ⟨S128x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S128x32x1x1_S128x32x64x64_0_1_2_3 : S128x32x1x1.BroadcastsInDim S128x32x64x64 (![0, 1, 2, 3] : Fin 4 → Fin S128x32x64x64.rank)
  dot_S128x32x1x64_S128x32x64x64_S128x32x1x64_3_2_2_3_01_01_wf : DotDims.WF S128x32x1x64 S128x32x64x64 S128x32x1x64 [3] [2] [2] [3] [0, 1] [0, 1]
  dot_S128x32x1x64_S128x32x1x64_S128x32x64x64_2_2_3_3_01_01_wf : DotDims.WF S128x32x1x64 S128x32x1x64 S128x32x64x64 [2] [2] [3] [3] [0, 1] [0, 1]

variable [Facts₀]

def dot_S128x32x1x64_S128x32x64x64_S128x32x1x64_3_2_2_3_01_01 : DotDims S128x32x1x64 S128x32x64x64 S128x32x1x64 where
  lhsContracting := [3]
  rhsContracting := [2]
  lhsNonContracting := [2]
  rhsNonContracting := [3]
  lhsBatch := [0, 1]
  rhsBatch := [0, 1]
  wf := dot_S128x32x1x64_S128x32x64x64_S128x32x1x64_3_2_2_3_01_01_wf
def dot_S128x32x1x64_S128x32x1x64_S128x32x64x64_2_2_3_3_01_01 : DotDims S128x32x1x64 S128x32x1x64 S128x32x64x64 where
  lhsContracting := [2]
  rhsContracting := [2]
  lhsNonContracting := [3]
  rhsNonContracting := [3]
  lhsBatch := [0, 1]
  rhsBatch := [0, 1]
  wf := dot_S128x32x1x64_S128x32x1x64_S128x32x64x64_2_2_3_3_01_01_wf

class Facts : Prop extends Facts₀ where

variable [Facts]
-- ==== Proof.BodyPieces.lean ====
/-
  What one run of the kernel body leaves in its three output buffers, as values.

  The body stores the new gradient block, reads that store back to form the new weight block, stores it, and
  reads that store back for the output row.  Every load and every store goes through the whole buffer, so each
  buffer ends holding exactly the payload of its one store, and a read-back of a store is the stored payload.
  Hence, with `x0 … x5` the six input blocks (weights, gradient, XA, XB, XC, step size):

    gradient buffer  =  pay4 XB XA W G
    weight buffer    =  pay1 W (gradient buffer) coeff
    output buffer    =  pay2 XC (weight buffer)

  stated for every float instance.
-/
import proofs.«144095_j35210141892673_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offsets of a rank-3 whole-buffer access. -/
theorem hz3 : (![0, 0, 0] : Fin 3 → Nat) = fun _ => 0 := funext fun a => by fin_cases a <;> rfl

/-- The new gradient block, as the body computes it from the loaded blocks. -/
abbrev gradBlock (x0 x1 : Vec F S64x64x64 .f32) (x2 x3 : Vec F S64x1x64 .f32) : Vec F S64x64x64 .f32 :=
  k0_pay4 x3 x2 x0 x1

/-- The new weight block: the old one minus the step size times the new gradient block. -/
abbrev weightBlock (x0 x1 : Vec F S64x64x64 .f32) (x2 x3 : Vec F S64x1x64 .f32) (x5 : Vec F S64x1x1 .f32) :
    Vec F S64x64x64 .f32 :=
  k0_pay1 (k0_pay5 x0) (k0_pay6 (gradBlock x0 x1 x2 x3)) (k0_pay7 x5)

/-- The output block: XC contracted against the new weight block. -/
abbrev outBlock (x0 x1 : Vec F S64x64x64 .f32) (x2 x3 x4 : Vec F S64x1x64 .f32) (x5 : Vec F S64x1x1 .f32) :
    Vec F S64x1x64 .f32 :=
  k0_pay2 (k0_pay3 x4) (weightBlock x0 x1 x2 x3 x5)

/-- The gradient buffer ends at the gradient block. -/
theorem grad_piece (c : Dev nD) (i : grid0.Coords) (arg1 : Memref sig .tc .vmem S64x64x64 .f32) (harg1 : arg1.IsWhole) (arg2 : Memref sig .tc .vmem S64x64x64 .f32) (harg2 : arg2.IsWhole) (arg3 : Memref sig .tc .vmem S64x1x64 .f32) (harg3 : arg3.IsWhole) (arg4 : Memref sig .tc .vmem S64x1x64 .f32) (harg4 : arg4.IsWhole) (arg5 : Memref sig .tc .vmem S64x1x64 .f32) (harg5 : arg5.IsWhole) (arg6 : Memref sig .tc .vmem S64x1x1 .f32) (harg6 : arg6.IsWhole) (arg7 : Memref sig .tc .vmem S64x1x64 .f32) (harg7 : arg7.IsWhole) (arg8 : Memref sig .tc .vmem S64x64x64 .f32) (harg8 : arg8.IsWhole) (arg9 : Memref sig .tc .vmem S64x64x64 .f32) (harg9 : arg9.IsWhole)
    (x0 : Vec F S64x64x64 .f32) (x1 : Vec F S64x64x64 .f32) (x2 : Vec F S64x1x64 .f32) (x3 : Vec F S64x1x64 .f32) (x4 : Vec F S64x1x64 .f32) (x5 : Vec F S64x1x1 .f32) :
    out0_A_8 c i arg1 harg1 arg2 harg2 arg3 harg3 arg4 harg4 arg5 harg5 arg6 harg6 arg7 harg7 arg8 harg8 arg9 harg9 x0 x1 x2 x3 x4 x5 = gradBlock x0 x1 x2 x3 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero hz3]
  simp only [View.readAt_eq_ld, harg1.read_unread, harg2.read_unread, harg3.read_unread, harg4.read_unread,
    View.ld_unit_zero (S := S64x64x64) hz3, View.ld_unit_zero (S := S64x1x64) hz3]

/-- The weight buffer ends at the weight block: the read-back of the gradient store is the gradient block. -/
theorem weight_piece (c : Dev nD) (i : grid0.Coords) (arg1 : Memref sig .tc .vmem S64x64x64 .f32) (harg1 : arg1.IsWhole) (arg2 : Memref sig .tc .vmem S64x64x64 .f32) (harg2 : arg2.IsWhole) (arg3 : Memref sig .tc .vmem S64x1x64 .f32) (harg3 : arg3.IsWhole) (arg4 : Memref sig .tc .vmem S64x1x64 .f32) (harg4 : arg4.IsWhole) (arg5 : Memref sig .tc .vmem S64x1x64 .f32) (harg5 : arg5.IsWhole) (arg6 : Memref sig .tc .vmem S64x1x1 .f32) (harg6 : arg6.IsWhole) (arg7 : Memref sig .tc .vmem S64x1x64 .f32) (harg7 : arg7.IsWhole) (arg8 : Memref sig .tc .vmem S64x64x64 .f32) (harg8 : arg8.IsWhole) (arg9 : Memref sig .tc .vmem S64x64x64 .f32) (harg9 : arg9.IsWhole)
    (x0 : Vec F S64x64x64 .f32) (x1 : Vec F S64x64x64 .f32) (x2 : Vec F S64x1x64 .f32) (x3 : Vec F S64x1x64 .f32) (x4 : Vec F S64x1x64 .f32) (x5 : Vec F S64x1x1 .f32) :
    out0_A_7 c i arg1 harg1 arg2 harg2 arg3 harg3 arg4 harg4 arg5 harg5 arg6 harg6 arg7 harg7 arg8 harg8 arg9 harg9 x0 x1 x2 x3 x4 x5 = weightBlock x0 x1 x2 x3 x5 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero (S := S64x64x64) hz3, View.readCov_unit_zero (S := S64x64x64) _ hz3]
  simp only [View.readAt_eq_ld, harg1.read_unread, harg2.read_unread, harg3.read_unread, harg4.read_unread,
    harg6.read_unread, View.ld_unit_zero (S := S64x64x64) hz3, View.ld_unit_zero (S := S64x1x64) hz3,
    View.ld_unit_zero (S := S64x1x1) hz3]

/-- The output buffer ends at the output block: the read-back of the weight store is the weight block. -/
theorem out_piece (c : Dev nD) (i : grid0.Coords) (arg1 : Memref sig .tc .vmem S64x64x64 .f32) (harg1 : arg1.IsWhole) (arg2 : Memref sig .tc .vmem S64x64x64 .f32) (harg2 : arg2.IsWhole) (arg3 : Memref sig .tc .vmem S64x1x64 .f32) (harg3 : arg3.IsWhole) (arg4 : Memref sig .tc .vmem S64x1x64 .f32) (harg4 : arg4.IsWhole) (arg5 : Memref sig .tc .vmem S64x1x64 .f32) (harg5 : arg5.IsWhole) (arg6 : Memref sig .tc .vmem S64x1x1 .f32) (harg6 : arg6.IsWhole) (arg7 : Memref sig .tc .vmem S64x1x64 .f32) (harg7 : arg7.IsWhole) (arg8 : Memref sig .tc .vmem S64x64x64 .f32) (harg8 : arg8.IsWhole) (arg9 : Memref sig .tc .vmem S64x64x64 .f32) (harg9 : arg9.IsWhole)
    (x0 : Vec F S64x64x64 .f32) (x1 : Vec F S64x64x64 .f32) (x2 : Vec F S64x1x64 .f32) (x3 : Vec F S64x1x64 .f32) (x4 : Vec F S64x1x64 .f32) (x5 : Vec F S64x1x1 .f32) :
    out0_A_6 c i arg1 harg1 arg2 harg2 arg3 harg3 arg4 harg4 arg5 harg5 arg6 harg6 arg7 harg7 arg8 harg8 arg9 harg9 x0 x1 x2 x3 x4 x5 = outBlock x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero (S := S64x1x64) hz3, View.readCov_unit_zero (S := S64x64x64) _ hz3,
    View.readCov_unit_zero (S := S64x64x64) _ hz3]
  simp only [View.readAt_eq_ld, harg1.read_unread, harg2.read_unread, harg3.read_unread, harg4.read_unread,
    harg5.read_unread, harg6.read_unread, View.ld_unit_zero (S := S64x64x64) hz3,
    View.ld_unit_zero (S := S64x1x64) hz3, View.ld_unit_zero (S := S64x1x1) hz3]

end Cert.KernelIdeal.Body

end
-- ==== Proof.Layout64.lean ====
/-
  The layout steps of a [64, ·, ·] block, each read at explicit coordinates.

  The body views a [64,1,64] row block as [64,64], gives it a trailing or a middle unit axis again, and
  broadcasts along the axis of extent one; a shape cast keeps the row-major position, and a broadcast reads the
  operand at coordinate 0 on its unit axes.  With (n, f, d) the coordinates of a [64,64,64] block:

    [64,1,64] → [64,64]     at (n, k)     reads (n, 0, k)
    [64,64]   → [64,64,1]   at (n, k, 0)  reads (n, k)
    [64,64]   → [64,1,64]   at (n, 0, d)  reads (n, d)
    [64,1,1]  → [64,1]      at (n, 0)     reads (n, 0, 0)
    [64,1]    → [64,1,1]    at (n, 0, 0)  reads (n, 0)
    [64,64,1] → [64,64,64]  at (n, f, d)  reads (n, f, 0)
    [64,1,64] → [64,64,64]  at (n, f, d)  reads (n, 0, d)
    [64,1,1]  → [64,64,64]  at (n, f, d)  reads (n, 0, 0)

  and the sum of a [64,64,64] block over its middle axis, over the extended reals, is at (n, d) the plain sum
  over k of the entries (n, k, d).
-/
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Layout64

abbrev B3 : Shape := ⟨3, ![64, 64, 64]⟩
abbrev Brow : Shape := ⟨3, ![64, 1, 64]⟩
abbrev Bcol : Shape := ⟨3, ![64, 64, 1]⟩
abbrev Bone : Shape := ⟨3, ![64, 1, 1]⟩
abbrev B2 : Shape := ⟨2, ![64, 64]⟩
abbrev B21 : Shape := ⟨2, ![64, 1]⟩

variable {α : Type}

theorem row_to_flat (x : Brow.Idx → α) (h : Brow.ShapeCasts B2) (n k : Fin 64) :
    shapeCast B2 x h (ix2 n k) = x (ix3 n 0 k) :=
  shapeCast_apply x h (ix2 n k) (ix3 n 0 k) (by
    rw [Shape.rowMajor_val_three, Shape.rowMajor_val_two]
    show (n.val * 1 + 0) * 64 + k.val = n.val * 64 + k.val
    omega)

theorem flat_to_col (v : B2.Idx → α) (h : B2.ShapeCasts Bcol) (n k : Fin 64) :
    shapeCast Bcol v h (ix3 n k 0) = v (ix2 n k) :=
  shapeCast_apply v h (ix3 n k 0) (ix2 n k) (by
    rw [Shape.rowMajor_val_three, Shape.rowMajor_val_two]
    show n.val * 64 + k.val = (n.val * 64 + k.val) * 1 + 0
    omega)

theorem flat_to_row (v : B2.Idx → α) (h : B2.ShapeCasts Brow) (n d : Fin 64) :
    shapeCast Brow v h (ix3 n 0 d) = v (ix2 n d) :=
  shapeCast_apply v h (ix3 n 0 d) (ix2 n d) (by
    rw [Shape.rowMajor_val_three, Shape.rowMajor_val_two]
    show n.val * 64 + d.val = (n.val * 1 + 0) * 64 + d.val
    omega)

theorem one_to_flat (x : Bone.Idx → α) (h : Bone.ShapeCasts B21) (n : Fin 64) :
    shapeCast B21 x h (ix2 n 0) = x (ix3 n 0 0) :=
  shapeCast_apply x h (ix2 n 0) (ix3 n 0 0) (by
    rw [Shape.rowMajor_val_three, Shape.rowMajor_val_two]
    show (n.val * 1 + 0) * 1 + 0 = n.val * 1 + 0
    omega)

theorem flat_to_one (v : B21.Idx → α) (h : B21.ShapeCasts Bone) (n : Fin 64) :
    shapeCast Bone v h (ix3 n 0 0) = v (ix2 n 0) :=
  shapeCast_apply v h (ix3 n 0 0) (ix2 n 0) (by
    rw [Shape.rowMajor_val_three, Shape.rowMajor_val_two]
    show n.val * 1 + 0 = (n.val * 1 + 0) * 1 + 0
    omega)

theorem col_bcast (v : Bcol.Idx → α) (h : Bcol.Broadcasts B3) (n f d : Fin 64) :
    broadcastTo B3 v h (ix3 n f d) = v (ix3 n f 0) :=
  broadcastTo_apply v h (ix3 n f d) (ix3 n f 0) (fun a => match a with
    | ⟨0, _⟩ => rfl
    | ⟨1, _⟩ => rfl
    | ⟨2, _⟩ => rfl)

theorem row_bcast (v : Brow.Idx → α) (h : Brow.Broadcasts B3) (n f d : Fin 64) :
    broadcastTo B3 v h (ix3 n f d) = v (ix3 n 0 d) :=
  broadcastTo_apply v h (ix3 n f d) (ix3 n 0 d) (fun a => match a with
    | ⟨0, _⟩ => rfl
    | ⟨1, _⟩ => rfl
    | ⟨2, _⟩ => rfl)

theorem one_bcast (v : Bone.Idx → α) (h : Bone.Broadcasts B3) (n f d : Fin 64) :
    broadcastTo B3 v h (ix3 n f d) = v (ix3 n 0 0) :=
  broadcastTo_apply v h (ix3 n f d) (ix3 n 0 0) (fun a => match a with
    | ⟨0, _⟩ => rfl
    | ⟨1, _⟩ => rfl
    | ⟨2, _⟩ => rfl)

/-- The sum over the middle axis, on the extended reals: at (n, d) the plain sum over k of the entries (n, k, d). -/
theorem mid_sum (src : FVec Ideal B3 .f32) (h : Shape.Reduces B3 [1] B2) (hφ : FTy.f32 = FTy.f32 ∨ FTy.f32 = FTy.bf16)
    (hacc : (0x00000000#32 : BitVec 32) = 0x00000000#32) (n d : Fin 64) :
    multiReduction .add [1] B2 src 0x00000000#32 h hφ hacc (ix2 n d) = ∑ k : Fin 64, src (ix3 n k d) := by
  refine (Ideal.multiReduction_add_single src 0x00000000#32 h hφ hacc (ix2 n d)).trans ?_
  refine Finset.sum_congr rfl fun k _ => congrArg src (funext fun a => ?_)
  match a with
  | ⟨0, _⟩ => rfl
  | ⟨1, _⟩ => rfl
  | ⟨2, _⟩ => rfl

end Cert.Layout64

end
-- ==== Proof.Spec.lean ====
/-
  The fast-weight update, as formulas over the extended reals.

  For one (batch b, head h) pair, with W, G the 64×64 weight and gradient matrices, xa, xb, xc the three
  length-64 rows and c the step size:

    z(d)      = Σ_k xb(k) · W(k, d) − xa(d)                prediction error
    G'(f, d)  = G(f, d) + xb(f) · z(d)                      gradient plus the outer product
    W'(f, d)  = W(f, d) − c · G'(f, d)                      one descent step
    out(d)    = Σ_k xc(k) · W'(k, d)                        the query against the new weights

  The same four formulas are written twice: over a [64,·,·] block whose leading coordinate n runs over 64
  consecutive (b, h) pairs, and over the [128,32,·,·] arrays.  A block whose entries are the arrays' entries at
  one (b, h) computes that pair's values: the formulas only read entries with that leading coordinate, so
  no property of the numbers is used.
-/
import Idealize.ShloMosaic.PureOps.Ideal
import Idealize.ShloMosaic.Lib.ValueIdx

noncomputable section

open Idealize.ShloMosaic Idealize.ShloMosaic.ValueIdx

namespace Cert.FastWeight

/-! ## Over one [64,·,·] block -/

abbrev B3 : Shape := ⟨3, ![64, 64, 64]⟩
abbrev Brow : Shape := ⟨3, ![64, 1, 64]⟩
abbrev Bone : Shape := ⟨3, ![64, 1, 1]⟩

def bErr (x0 : B3.Idx → EReal) (x2 x3 : Brow.Idx → EReal) (n d : Fin 64) : EReal :=
  (∑ k : Fin 64, x3 (ix3 n 0 k) * x0 (ix3 n k d)) - x2 (ix3 n 0 d)

def bGrad (x0 x1 : B3.Idx → EReal) (x2 x3 : Brow.Idx → EReal) (n f d : Fin 64) : EReal :=
  x1 (ix3 n f d) + x3 (ix3 n 0 f) * bErr x0 x2 x3 n d

def bWeight (x0 x1 : B3.Idx → EReal) (x2 x3 : Brow.Idx → EReal) (x5 : Bone.Idx → EReal) (n f d : Fin 64) : EReal :=
  x0 (ix3 n f d) - x5 (ix3 n 0 0) * bGrad x0 x1 x2 x3 n f d

def bOut (x0 x1 : B3.Idx → EReal) (x2 x3 x4 : Brow.Idx → EReal) (x5 : Bone.Idx → EReal) (n d : Fin 64) : EReal :=
  ∑ k : Fin 64, x4 (ix3 n 0 k) * bWeight x0 x1 x2 x3 x5 n k d

/-! ## Over the [128,32,·,·] arrays -/

abbrev A4 : Shape := ⟨4, ![128, 32, 64, 64]⟩
abbrev Arow : Shape := ⟨4, ![128, 32, 1, 64]⟩
abbrev Aone : Shape := ⟨4, ![128, 32, 1, 1]⟩

def err (W : A4.Idx → EReal) (XA XB : Arow.Idx → EReal) (b : Fin 128) (h : Fin 32) (d : Fin 64) : EReal :=
  (∑ k : Fin 64, XB (ix4 b h 0 k) * W (ix4 b h k d)) - XA (ix4 b h 0 d)

def grad (W G : A4.Idx → EReal) (XA XB : Arow.Idx → EReal) (b : Fin 128) (h : Fin 32) (f d : Fin 64) : EReal :=
  G (ix4 b h f d) + XB (ix4 b h 0 f) * err W XA XB b h d

def weight (W G : A4.Idx → EReal) (XA XB : Arow.Idx → EReal) (C : Aone.Idx → EReal)
    (b : Fin 128) (h : Fin 32) (f d : Fin 64) : EReal :=
  W (ix4 b h f d) - C (ix4 b h 0 0) * grad W G XA XB b h f d

def out (W G : A4.Idx → EReal) (XA XB XC : Arow.Idx → EReal) (C : Aone.Idx → EReal)
    (b : Fin 128) (h : Fin 32) (d : Fin 64) : EReal :=
  ∑ k : Fin 64, XC (ix4 b h 0 k) * weight W G XA XB C b h k d

/-- The three results as arrays. -/
def gradArr (W G : A4.Idx → EReal) (XA XB : Arow.Idx → EReal) : A4.Idx → EReal :=
  fun i => grad W G XA XB (i 0) (i 1) (i 2) (i 3)

def weightArr (W G : A4.Idx → EReal) (XA XB : Arow.Idx → EReal) (C : Aone.Idx → EReal) : A4.Idx → EReal :=
  fun i => weight W G XA XB C (i 0) (i 1) (i 2) (i 3)

def outArr (W G : A4.Idx → EReal) (XA XB XC : Arow.Idx → EReal) (C : Aone.Idx → EReal) : Arow.Idx → EReal :=
  fun i => out W G XA XB XC C (i 0) (i 1) (i 3)

theorem gradArr_apply (W G : A4.Idx → EReal) (XA XB : Arow.Idx → EReal) (b : Fin 128) (h : Fin 32) (f d : Fin 64) :
    gradArr W G XA XB (ix4 b h f d) = grad W G XA XB b h f d := rfl

theorem weightArr_apply (W G : A4.Idx → EReal) (XA XB : Arow.Idx → EReal) (C : Aone.Idx → EReal)
    (b : Fin 128) (h : Fin 32) (f d : Fin 64) :
    weightArr W G XA XB C (ix4 b h f d) = weight W G XA XB C b h f d := rfl

theorem outArr_apply (W G : A4.Idx → EReal) (XA XB XC : Arow.Idx → EReal) (C : Aone.Idx → EReal)
    (b : Fin 128) (h : Fin 32) (d : Fin 64) :
    outArr W G XA XB XC C (ix4 b h 0 d) = out W G XA XB XC C b h d := rfl

/-! ## A block that holds one (b, h) pair's entries computes that pair's values -/

section Block
variable {x0 x1 : B3.Idx → EReal} {x2 x3 x4 : Brow.Idx → EReal} {x5 : Bone.Idx → EReal}
variable {W G : A4.Idx → EReal} {XA XB XC : Arow.Idx → EReal} {C : Aone.Idx → EReal}
variable {n : Fin 64} {b : Fin 128} {h : Fin 32}

theorem bErr_eq (hW : ∀ f d, x0 (ix3 n f d) = W (ix4 b h f d)) (hA : ∀ d, x2 (ix3 n 0 d) = XA (ix4 b h 0 d))
    (hB : ∀ d, x3 (ix3 n 0 d) = XB (ix4 b h 0 d)) (d : Fin 64) : bErr x0 x2 x3 n d = err W XA XB b h d := by
  unfold bErr err
  simp only [hW, hA, hB]

theorem bGrad_eq (hW : ∀ f d, x0 (ix3 n f d) = W (ix4 b h f d)) (hG : ∀ f d, x1 (ix3 n f d) = G (ix4 b h f d))
    (hA : ∀ d, x2 (ix3 n 0 d) = XA (ix4 b h 0 d)) (hB : ∀ d, x3 (ix3 n 0 d) = XB (ix4 b h 0 d)) (f d : Fin 64) :
    bGrad x0 x1 x2 x3 n f d = grad W G XA XB b h f d := by
  unfold bGrad grad
  rw [bErr_eq hW hA hB, hG, hB]

theorem bWeight_eq (hW : ∀ f d, x0 (ix3 n f d) = W (ix4 b h f d)) (hG : ∀ f d, x1 (ix3 n f d) = G (ix4 b h f d))
    (hA : ∀ d, x2 (ix3 n 0 d) = XA (ix4 b h 0 d)) (hB : ∀ d, x3 (ix3 n 0 d) = XB (ix4 b h 0 d))
    (hC : x5 (ix3 n 0 0) = C (ix4 b h 0 0)) (f d : Fin 64) :
    bWeight x0 x1 x2 x3 x5 n f d = weight W G XA XB C b h f d := by
  unfold bWeight weight
  rw [bGrad_eq hW hG hA hB, hW, hC]

theorem bOut_eq (hW : ∀ f d, x0 (ix3 n f d) = W (ix4 b h f d)) (hG : ∀ f d, x1 (ix3 n f d) = G (ix4 b h f d))
    (hA : ∀ d, x2 (ix3 n 0 d) = XA (ix4 b h 0 d)) (hB : ∀ d, x3 (ix3 n 0 d) = XB (ix4 b h 0 d))
    (hX : ∀ d, x4 (ix3 n 0 d) = XC (ix4 b h 0 d)) (hC : x5 (ix3 n 0 0) = C (ix4 b h 0 0)) (d : Fin 64) :
    bOut x0 x1 x2 x3 x4 x5 n d = out W G XA XB XC C b h d := by
  unfold bOut out
  refine Finset.sum_congr rfl fun k _ => ?_
  rw [bWeight_eq hW hG hA hB hC, hX]

end Block

end Cert.FastWeight

end
-- ==== Proof.BodyValues.lean ====
/-
  The three blocks the body leaves, read entry by entry on the extended reals.

  Pushing the coordinates (n, f, d) through the body's squeezes, broadcasts and its two sums over the middle
  axis gives, for the loaded blocks x0 (weights), x1 (gradient), x2, x3, x4 (the rows XA, XB, XC) and x5 (step size):

    gradient block at (n, f, d)  =  x1(n,f,d) + x3(n,0,f) · (Σ_k x3(n,0,k) · x0(n,k,d) − x2(n,0,d))
    weight block   at (n, f, d)  =  x0(n,f,d) − x5(n,0,0) · (gradient block at (n, f, d))
    output block   at (n, 0, d)  =  Σ_k x4(n,0,k) · (weight block at (n, k, d))

  which are the block-level formulas of the specification.
-/
import proofs.«144095_j35210141892673_2_alg».proof.Proof.BodyPieces
import proofs.«144095_j35210141892673_2_alg».proof.Proof.Layout64
import proofs.«144095_j35210141892673_2_alg».proof.Proof.Spec

noncomputable section

open Idealize.ShloMosaic Idealize.ShloMosaic.TcCoe Idealize.SL.Sem Idealize.ShloMosaic.ValueIdx

namespace Cert.KernelIdeal.Body

open Cert.KernelIdeal Cert.KernelIdeal.Gen Cert.Layout64 Cert.FastWeight

theorem gradBlock_apply (x0 x1 : Vec Ideal S64x64x64 .f32) (x2 x3 : Vec Ideal S64x1x64 .f32) (n f d : Fin 64) :
    gradBlock (F := Ideal) x0 x1 x2 x3 (ix3 n f d) = bGrad x0 x1 x2 x3 n f d := by
  show k0_pay4 x3 x2 x0 x1 (ix3 n f d) = _
  unfold k0_pay4 bGrad bErr
  dsimp only
  simp only [addf_apply, mulf_apply, subf_apply, shapeCast_self, col_bcast, row_bcast, flat_to_col, flat_to_row,
    row_to_flat]
  refine congrArg (fun s => x1 (ix3 n f d) + x3 (ix3 n 0 f) * (s - x2 (ix3 n 0 d))) ?_
  refine (mid_sum _ _ _ _ n d).trans (Finset.sum_congr rfl fun k _ => ?_)
  simp only [mulf_apply, col_bcast, flat_to_col, row_to_flat]

theorem weightBlock_apply (x0 x1 : Vec Ideal S64x64x64 .f32) (x2 x3 : Vec Ideal S64x1x64 .f32)
    (x5 : Vec Ideal S64x1x1 .f32) (n f d : Fin 64) :
    weightBlock (F := Ideal) x0 x1 x2 x3 x5 (ix3 n f d) = bWeight x0 x1 x2 x3 x5 n f d := by
  show k0_pay1 (k0_pay5 x0) (k0_pay6 (gradBlock x0 x1 x2 x3)) (k0_pay7 x5) (ix3 n f d) = _
  unfold k0_pay1 k0_pay5 k0_pay6 k0_pay7 bWeight
  dsimp only
  simp only [mulf_apply, subf_apply, shapeCast_self, one_bcast, flat_to_one, one_to_flat]
  rw [gradBlock_apply]

theorem outBlock_apply (x0 x1 : Vec Ideal S64x64x64 .f32) (x2 x3 x4 : Vec Ideal S64x1x64 .f32)
    (x5 : Vec Ideal S64x1x1 .f32) (n d : Fin 64) :
    outBlock (F := Ideal) x0 x1 x2 x3 x4 x5 (ix3 n 0 d) = bOut x0 x1 x2 x3 x4 x5 n d := by
  show k0_pay2 (k0_pay3 x4) (weightBlock x0 x1 x2 x3 x5) (ix3 n 0 d) = _
  unfold k0_pay2 k0_pay3 bOut
  dsimp only
  simp only [flat_to_row]
  refine (mid_sum _ _ _ _ n d).trans (Finset.sum_congr rfl fun k _ => ?_)
  simp only [mulf_apply, shapeCast_self, col_bcast, flat_to_col, row_to_flat]
  rw [weightBlock_apply]

end Cert.KernelIdeal.Body

end
-- ==== Proof.Reshape.lean ====
/-
  The reshape between [128, 32, ·, ·] and [4096, ·, ·], read at an index.

  A reshape keeps the row-major position, and the two leading axes (b, h) of extents 128 and 32 flatten to the one
  coordinate 32·b + h.  So an index of the flat array whose leading coordinate is 32·b + h reads the
  4-dimensional array at (b, h, ·, ·), the trailing coordinates unchanged.  Also: two functions on a rank-3 index
  type are equal when they agree at every triple of coordinates.
-/
import Idealize.ShloMosaic.Lib.Pipeline.Value
import Idealize.ShloMosaic.Lib.ValueIdx

noncomputable section

open Idealize.ShloMosaic Idealize.ShloMosaic.ValueIdx

namespace Cert.Reshape

abbrev A4 : Shape := ⟨4, ![128, 32, 64, 64]⟩
abbrev Arow : Shape := ⟨4, ![128, 32, 1, 64]⟩
abbrev Aone : Shape := ⟨4, ![128, 32, 1, 1]⟩
abbrev F3 : Shape := ⟨3, ![4096, 64, 64]⟩
abbrev Frow : Shape := ⟨3, ![4096, 1, 64]⟩
abbrev Fone : Shape := ⟨3, ![4096, 1, 1]⟩

variable {α : Type}

theorem flat_mat (X : A4.Idx → α) (hc : A4.ShapeCasts F3) (i : F3.Idx) (b : Fin 128) (h : Fin 32) (f d : Fin 64)
    (h0 : (i 0).val = 32 * b.val + h.val) (h1 : (i 1).val = f.val) (h2 : (i 2).val = d.val) :
    shapeCast F3 X hc i = X (ix4 b h f d) :=
  shapeCast_apply X hc i (ix4 b h f d) (by
    rw [Shape.rowMajor_val_four, Shape.rowMajor_val_three]
    show ((b.val * 32 + h.val) * 64 + f.val) * 64 + d.val = ((i 0).val * 64 + (i 1).val) * 64 + (i 2).val
    omega)

theorem flat_row (X : Arow.Idx → α) (hc : Arow.ShapeCasts Frow) (i : Frow.Idx) (b : Fin 128) (h : Fin 32) (d : Fin 64)
    (h0 : (i 0).val = 32 * b.val + h.val) (h2 : (i 2).val = d.val) :
    shapeCast Frow X hc i = X (ix4 b h 0 d) :=
  shapeCast_apply X hc i (ix4 b h 0 d) (by
    have h1 : (i 1).val < 1 := (i 1).isLt
    rw [Shape.rowMajor_val_four, Shape.rowMajor_val_three]
    show ((b.val * 32 + h.val) * 1 + 0) * 64 + d.val = ((i 0).val * 1 + (i 1).val) * 64 + (i 2).val
    omega)

theorem flat_one (X : Aone.Idx → α) (hc : Aone.ShapeCasts Fone) (i : Fone.Idx) (b : Fin 128) (h : Fin 32)
    (h0 : (i 0).val = 32 * b.val + h.val) :
    shapeCast Fone X hc i = X (ix4 b h 0 0) :=
  shapeCast_apply X hc i (ix4 b h 0 0) (by
    have h1 : (i 1).val < 1 := (i 1).isLt
    have h2 : (i 2).val < 1 := (i 2).isLt
    rw [Shape.rowMajor_val_four, Shape.rowMajor_val_three]
    show ((b.val * 32 + h.val) * 1 + 0) * 1 + 0 = ((i 0).val * 1 + (i 1).val) * 1 + (i 2).val
    omega)

/-- Functions on a rank-3 index type agree when they agree at every triple of coordinates. -/
theorem ext_ix3 {n0 n1 n2 : Nat} (u v : (⟨3, ![n0, n1, n2]⟩ : Shape).Idx → α)
    (h : ∀ (a : Fin n0) (b : Fin n1) (c : Fin n2), u (ix3 a b c) = v (ix3 a b c)) : u = v :=
  funext fun y => (congrArg u (eq_ix3 y)).trans ((h _ _ _).trans (congrArg v (eq_ix3 y)).symm)

/-- Functions on a rank-4 index type agree when they agree at every quadruple of coordinates. -/
theorem ext_ix4 {n0 n1 n2 n3 : Nat} (u v : (⟨4, ![n0, n1, n2, n3]⟩ : Shape).Idx → α)
    (h : ∀ (a : Fin n0) (b : Fin n1) (c : Fin n2) (d : Fin n3), u (ix4 a b c d) = v (ix4 a b c d)) : u = v :=
  funext fun y => (congrArg u (eq_ix4 y)).trans ((h _ _ _ _).trans (congrArg v (eq_ix4 y)).symm)

end Cert.Reshape

end
-- ==== Proof.ArrayValues.lean ====
/-
  The three result arrays of the pallas call, as flat [4096, ·, ·] arrays.

  The call's six operands are the arguments reshaped to [4096, ·, ·]; grid point t works on the 64 consecutive
  leading coordinates 64·t … 64·t + 63 of every operand and result.  An entry of a block at (n, ·, ·) is therefore
  the argument's entry at (b, h, ·, ·) with 32·b + h = 64·t + n, and by the block-level formulas what point t
  writes back is the block of ONE flat array: the specification's array, reshaped.  Every leading coordinate r lies
  in the block of point r / 64, so after the last point each result array is that flat array whole.
-/
import proofs.«144095_j35210141892673_2_alg».proof.Proof.BodyValues
import proofs.«144095_j35210141892673_2_alg».proof.Proof.Reshape
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Body Cert.FastWeight Cert.Reshape

variable (m : (ℓ : Loc nD τ sig) → Buf (Elt Ideal) ℓ) (ρ : Dev nD → PrngReg)

/-! ## The operands are the arguments, reshaped -/

theorem V_v0 (c : Dev nD) :
    (V m c main_v0 : S4096x64x64.Idx → EReal) = shapeCast S4096x64x64 (m ((c : Thread nD τ).loc main_arg0)) shapeCasts_S128x32x64x64_S4096x64x64 := by
  show StableHlo.after hostOps0 (fun b => m (c, b)) (Proc.devRef .tc main_v0) = _
  after_results
  rfl

theorem V_v1 (c : Dev nD) :
    (V m c main_v1 : S4096x64x64.Idx → EReal) = shapeCast S4096x64x64 (m ((c : Thread nD τ).loc main_arg1)) shapeCasts_S128x32x64x64_S4096x64x64 := by
  show StableHlo.after hostOps0 (fun b => m (c, b)) (Proc.devRef .tc main_v1) = _
  after_results
  rfl

theorem V_v2 (c : Dev nD) :
    (V m c main_v2 : S4096x1x64.Idx → EReal) = shapeCast S4096x1x64 (m ((c : Thread nD τ).loc main_arg2)) shapeCasts_S128x32x1x64_S4096x1x64 := by
  show StableHlo.after hostOps0 (fun b => m (c, b)) (Proc.devRef .tc main_v2) = _
  after_results
  rfl

theorem V_v3 (c : Dev nD) :
    (V m c main_v3 : S4096x1x64.Idx → EReal) = shapeCast S4096x1x64 (m ((c : Thread nD τ).loc main_arg3)) shapeCasts_S128x32x1x64_S4096x1x64 := by
  show StableHlo.after hostOps0 (fun b => m (c, b)) (Proc.devRef .tc main_v3) = _
  after_results
  rfl

theorem V_v4 (c : Dev nD) :
    (V m c main_v4 : S4096x1x64.Idx → EReal) = shapeCast S4096x1x64 (m ((c : Thread nD τ).loc main_arg4)) shapeCasts_S128x32x1x64_S4096x1x64 := by
  show StableHlo.after hostOps0 (fun b => m (c, b)) (Proc.devRef .tc main_v4) = _
  after_results
  rfl

theorem V_v5 (c : Dev nD) :
    (V m c main_v5 : S4096x1x1.Idx → EReal) = shapeCast S4096x1x1 (m ((c : Thread nD τ).loc main_arg5)) shapeCasts_S128x32x1x1_S4096x1x1 := by
  show StableHlo.after hostOps0 (fun b => m (c, b)) (Proc.devRef .tc main_v5) = _
  after_results
  rfl

/-! ## Every window's block at point t starts at leading coordinate 64·t -/

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-! ## A block's entry is the argument's entry at the (b, h) its leading coordinate names -/

theorem read0 (c : Dev nD) (t : Fin cfg0.N) (n : Fin 64) (b : Fin 128) (h : Fin 32)
    (hbn : 64 * t.val + n.val = 32 * b.val + h.val) (f d : Fin 64) :
    iblk m c 0 t (ix3 n f d) = (m ((c : Thread nD τ).loc main_arg0)) (ix4 b h f d) := by
  obtain ⟨e0, e1, e2⟩ := (idx_facts t).1
  unfold iblk
  rw [View.read_apply]
  show V m c main_v0 (((cfg0.win 0).blk t).view.emb (ix3 n f d)) = _
  rw [V_v0]
  exact flat_mat _ _ _ b h f d
    (by show win0_0.index t (0 : Fin 3) * 64 + 1 * n.val = 32 * b.val + h.val; rw [e0]; omega)
    (by show win0_0.index t (1 : Fin 3) * 64 + 1 * f.val = f.val; rw [e1]; omega)
    (by show win0_0.index t (2 : Fin 3) * 64 + 1 * d.val = d.val; rw [e2]; omega)

theorem read1 (c : Dev nD) (t : Fin cfg0.N) (n : Fin 64) (b : Fin 128) (h : Fin 32)
    (hbn : 64 * t.val + n.val = 32 * b.val + h.val) (f d : Fin 64) :
    iblk m c 1 t (ix3 n f d) = (m ((c : Thread nD τ).loc main_arg1)) (ix4 b h f d) := by
  obtain ⟨e0, e1, e2⟩ := (idx_facts t).2.1
  unfold iblk
  rw [View.read_apply]
  show V m c main_v1 (((cfg0.win 1).blk t).view.emb (ix3 n f d)) = _
  rw [V_v1]
  exact flat_mat _ _ _ b h f d
    (by show win0_1.index t (0 : Fin 3) * 64 + 1 * n.val = 32 * b.val + h.val; rw [e0]; omega)
    (by show win0_1.index t (1 : Fin 3) * 64 + 1 * f.val = f.val; rw [e1]; omega)
    (by show win0_1.index t (2 : Fin 3) * 64 + 1 * d.val = d.val; rw [e2]; omega)

theorem read2 (c : Dev nD) (t : Fin cfg0.N) (n : Fin 64) (b : Fin 128) (h : Fin 32)
    (hbn : 64 * t.val + n.val = 32 * b.val + h.val) (d : Fin 64) :
    iblk m c 2 t (ix3 n 0 d) = (m ((c : Thread nD τ).loc main_arg2)) (ix4 b h 0 d) := by
  obtain ⟨e0, e1, e2⟩ := (idx_facts t).2.2.1
  unfold iblk
  rw [View.read_apply]
  show V m c main_v2 (((cfg0.win 2).blk t).view.emb (ix3 n 0 d)) = _
  rw [V_v2]
  exact flat_row _ _ _ b h d
    (by show win0_2.index t (0 : Fin 3) * 64 + 1 * n.val = 32 * b.val + h.val; rw [e0]; omega)
    (by show win0_2.index t (2 : Fin 3) * 64 + 1 * d.val = d.val; rw [e2]; omega)

theorem read3 (c : Dev nD) (t : Fin cfg0.N) (n : Fin 64) (b : Fin 128) (h : Fin 32)
    (hbn : 64 * t.val + n.val = 32 * b.val + h.val) (d : Fin 64) :
    iblk m c 3 t (ix3 n 0 d) = (m ((c : Thread nD τ).loc main_arg3)) (ix4 b h 0 d) := by
  obtain ⟨e0, e1, e2⟩ := (idx_facts t).2.2.2.1
  unfold iblk
  rw [View.read_apply]
  show V m c main_v3 (((cfg0.win 3).blk t).view.emb (ix3 n 0 d)) = _
  rw [V_v3]
  exact flat_row _ _ _ b h d
    (by show win0_3.index t (0 : Fin 3) * 64 + 1 * n.val = 32 * b.val + h.val; rw [e0]; omega)
    (by show win0_3.index t (2 : Fin 3) * 64 + 1 * d.val = d.val; rw [e2]; omega)

theorem read4 (c : Dev nD) (t : Fin cfg0.N) (n : Fin 64) (b : Fin 128) (h : Fin 32)
    (hbn : 64 * t.val + n.val = 32 * b.val + h.val) (d : Fin 64) :
    iblk m c 4 t (ix3 n 0 d) = (m ((c : Thread nD τ).loc main_arg4)) (ix4 b h 0 d) := by
  obtain ⟨e0, e1, e2⟩ := (idx_facts t).2.2.2.2.1
  unfold iblk
  rw [View.read_apply]
  show V m c main_v4 (((cfg0.win 4).blk t).view.emb (ix3 n 0 d)) = _
  rw [V_v4]
  exact flat_row _ _ _ b h d
    (by show win0_4.index t (0 : Fin 3) * 64 + 1 * n.val = 32 * b.val + h.val; rw [e0]; omega)
    (by show win0_4.index t (2 : Fin 3) * 64 + 1 * d.val = d.val; rw [e2]; omega)

theorem read5 (c : Dev nD) (t : Fin cfg0.N) (n : Fin 64) (b : Fin 128) (h : Fin 32)
    (hbn : 64 * t.val + n.val = 32 * b.val + h.val) :
    iblk m c 5 t (ix3 n 0 0) = (m ((c : Thread nD τ).loc main_arg5)) (ix4 b h 0 0) := by
  obtain ⟨e0, e1, e2⟩ := (idx_facts t).2.2.2.2.2.1
  unfold iblk
  rw [View.read_apply]
  show V m c main_v5 (((cfg0.win 5).blk t).view.emb (ix3 n 0 0)) = _
  rw [V_v5]
  exact flat_one _ _ _ b h
    (by show win0_5.index t (0 : Fin 3) * 64 + 1 * n.val = 32 * b.val + h.val; rw [e0]; omega)

/-! ## The flat result arrays -/

/-- The new gradient, flattened. -/
abbrev gradFlat (c : Dev nD) : S4096x64x64.Idx → EReal :=
  shapeCast S4096x64x64 (gradArr (m ((c : Thread nD τ).loc main_arg0)) (m ((c : Thread nD τ).loc main_arg1)) (m ((c : Thread nD τ).loc main_arg2)) (m ((c : Thread nD τ).loc main_arg3))) shapeCasts_S128x32x64x64_S4096x64x64

/-- The new weights, flattened. -/
abbrev weightFlat (c : Dev nD) : S4096x64x64.Idx → EReal :=
  shapeCast S4096x64x64 (weightArr (m ((c : Thread nD τ).loc main_arg0)) (m ((c : Thread nD τ).loc main_arg1)) (m ((c : Thread nD τ).loc main_arg2)) (m ((c : Thread nD τ).loc main_arg3)) (m ((c : Thread nD τ).loc main_arg5))) shapeCasts_S128x32x64x64_S4096x64x64

/-- The output, flattened. -/
abbrev outFlat (c : Dev nD) : S4096x1x64.Idx → EReal :=
  shapeCast S4096x1x64 (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) shapeCasts_S128x32x1x64_S4096x1x64

/-! ## What point t writes back is block t of the flat array -/

theorem flushed_grad (c : Dev nD) (t : Fin cfg0.N) :
    (dats m 0 c).flushed 8 t = ((cfg0.win 8).blk t).view.read (Elt Ideal) (gradFlat m c) := by
  show (cfg0.win 8).cut (grid0.coords t) ((dats m 0 c).after 8 t) = _
  rw [after0_8]
  refine ext_ix3 (n0 := 64) (n1 := 64) (n2 := 64) _ _ fun n f d => ?_
  have hN : cfg0.N = 64 := N_0
  have ht : t.val < 64 := by have := t.isLt; omega
  obtain ⟨b, h, hbn⟩ : ∃ (b : Fin 128) (h : Fin 32), 64 * t.val + n.val = 32 * b.val + h.val :=
    ⟨⟨(64 * t.val + n.val) / 32, by omega⟩, ⟨(64 * t.val + n.val) % 32, by omega⟩, by
      show 64 * t.val + n.val = 32 * ((64 * t.val + n.val) / 32) + (64 * t.val + n.val) % 32; omega⟩
  obtain ⟨e0, e1, e2⟩ := (idx_facts t).2.2.2.2.2.2.2.2
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (ix3 n f d)
      = gradFlat m c (((cfg0.win 8).blk t).view.emb (ix3 n f d))
  refine (congrFun (grad_piece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t)) (ix3 n f d)).trans ?_
  refine (gradBlock_apply (iblk m c 0 t) (iblk m c 1 t) (iblk m c 2 t) (iblk m c 3 t) n f d).trans ?_
  refine (bGrad_eq (fun f d => read0 m c t n b h hbn f d) (fun f d => read1 m c t n b h hbn f d)
    (fun d => read2 m c t n b h hbn d) (fun d => read3 m c t n b h hbn d) f d).trans ?_
  exact (flat_mat (gradArr (m ((c : Thread nD τ).loc main_arg0)) (m ((c : Thread nD τ).loc main_arg1)) (m ((c : Thread nD τ).loc main_arg2)) (m ((c : Thread nD τ).loc main_arg3))) _ _ b h f d
    (by show win0_8.index t (0 : Fin 3) * 64 + 1 * n.val = 32 * b.val + h.val; rw [e0]; omega)
    (by show win0_8.index t (1 : Fin 3) * 64 + 1 * f.val = f.val; rw [e1]; omega)
    (by show win0_8.index t (2 : Fin 3) * 64 + 1 * d.val = d.val; rw [e2]; omega)).symm

theorem flushed_weight (c : Dev nD) (t : Fin cfg0.N) :
    (dats m 0 c).flushed 7 t = ((cfg0.win 7).blk t).view.read (Elt Ideal) (weightFlat m c) := by
  show (cfg0.win 7).cut (grid0.coords t) ((dats m 0 c).after 7 t) = _
  rw [after0_7]
  refine ext_ix3 (n0 := 64) (n1 := 64) (n2 := 64) _ _ fun n f d => ?_
  have hN : cfg0.N = 64 := N_0
  have ht : t.val < 64 := by have := t.isLt; omega
  obtain ⟨b, h, hbn⟩ : ∃ (b : Fin 128) (h : Fin 32), 64 * t.val + n.val = 32 * b.val + h.val :=
    ⟨⟨(64 * t.val + n.val) / 32, by omega⟩, ⟨(64 * t.val + n.val) % 32, by omega⟩, by
      show 64 * t.val + n.val = 32 * ((64 * t.val + n.val) / 32) + (64 * t.val + n.val) % 32; omega⟩
  obtain ⟨e0, e1, e2⟩ := (idx_facts t).2.2.2.2.2.2.2.1
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (ix3 n f d)
      = weightFlat m c (((cfg0.win 7).blk t).view.emb (ix3 n f d))
  refine (congrFun (weight_piece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t)) (ix3 n f d)).trans ?_
  refine (weightBlock_apply (iblk m c 0 t) (iblk m c 1 t) (iblk m c 2 t) (iblk m c 3 t) (iblk m c 5 t) n f d).trans ?_
  refine (bWeight_eq (fun f d => read0 m c t n b h hbn f d) (fun f d => read1 m c t n b h hbn f d)
    (fun d => read2 m c t n b h hbn d) (fun d => read3 m c t n b h hbn d) (read5 m c t n b h hbn) f d).trans ?_
  exact (flat_mat (weightArr (m ((c : Thread nD τ).loc main_arg0)) (m ((c : Thread nD τ).loc main_arg1)) (m ((c : Thread nD τ).loc main_arg2)) (m ((c : Thread nD τ).loc main_arg3)) (m ((c : Thread nD τ).loc main_arg5))) _ _ b h f d
    (by show win0_7.index t (0 : Fin 3) * 64 + 1 * n.val = 32 * b.val + h.val; rw [e0]; omega)
    (by show win0_7.index t (1 : Fin 3) * 64 + 1 * f.val = f.val; rw [e1]; omega)
    (by show win0_7.index t (2 : Fin 3) * 64 + 1 * d.val = d.val; rw [e2]; omega)).symm

theorem flushed_out (c : Dev nD) (t : Fin cfg0.N) :
    (dats m 0 c).flushed 6 t = ((cfg0.win 6).blk t).view.read (Elt Ideal) (outFlat m c) := by
  show (cfg0.win 6).cut (grid0.coords t) ((dats m 0 c).after 6 t) = _
  rw [after0_6]
  refine ext_ix3 (n0 := 64) (n1 := 1) (n2 := 64) _ _ fun n z d => ?_
  obtain rfl : z = 0 := Subsingleton.elim _ _
  have hN : cfg0.N = 64 := N_0
  have ht : t.val < 64 := by have := t.isLt; omega
  obtain ⟨b, h, hbn⟩ : ∃ (b : Fin 128) (h : Fin 32), 64 * t.val + n.val = 32 * b.val + h.val :=
    ⟨⟨(64 * t.val + n.val) / 32, by omega⟩, ⟨(64 * t.val + n.val) % 32, by omega⟩, by
      show 64 * t.val + n.val = 32 * ((64 * t.val + n.val) / 32) + (64 * t.val + n.val) % 32; omega⟩
  obtain ⟨e0, e1, e2⟩ := (idx_facts t).2.2.2.2.2.2.1
  show out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (ix3 n 0 d)
      = outFlat m c (((cfg0.win 6).blk t).view.emb (ix3 n 0 d))
  refine (congrFun (out_piece c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t)) (ix3 n 0 d)).trans ?_
  refine (outBlock_apply (iblk m c 0 t) (iblk m c 1 t) (iblk m c 2 t) (iblk m c 3 t) (iblk m c 4 t) (iblk m c 5 t) n d).trans ?_
  refine (bOut_eq (fun f d => read0 m c t n b h hbn f d) (fun f d => read1 m c t n b h hbn f d)
    (fun d => read2 m c t n b h hbn d) (fun d => read3 m c t n b h hbn d) (fun d => read4 m c t n b h hbn d) (read5 m c t n b h hbn) d).trans ?_
  exact (flat_row (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) _ _ b h d
    (by show win0_6.index t (0 : Fin 3) * 64 + 1 * n.val = 32 * b.val + h.val; rw [e0]; omega)
    (by show win0_6.index t (2 : Fin 3) * 64 + 1 * d.val = d.val; rw [e2]; omega)).symm

/-! ## Every index of a result array lies in the block of point (leading coordinate) / 64 -/

theorem mem_blk8 (t : Fin cfg0.N) (i : S4096x64x64.Idx) :
    i ∈ ((cfg0.win 8).blk t).view.set ↔ ∀ a : Fin 3, win0_8.index t a * S64x64x64.size a ≤ (i a).val ∧ (i a).val < win0_8.index t a * S64x64x64.size a + S64x64x64.size a := by
  show i ∈ ((View.whole main_v6_2).slice (win0_8.rect t)).set ↔ _
  rw [View.set_slice_whole, Rect.mem_set_unit]
  exact Iff.rfl

theorem cover8 (c : Dev nD) (i : S4096x64x64.Idx) :
    ∃ t : Fin cfg0.N, (cfg0.win 8).flush t = true ∧ i ∈ ((cfg0.win 8).blk t).view.set := by
  have hi0 : (i 0).val < 4096 := (i 0).isLt
  have hi1 : (i 1).val < 64 := (i 1).isLt
  have hi2 : (i 2).val < 64 := (i 2).isLt
  have hN : grid0.N = 64 := N_0
  have hlt : (i 0).val / 64 < cfg0.N := by show (i 0).val / 64 < grid0.N; rw [hN]; omega
  obtain ⟨e0, e1, e2⟩ := (idx_facts ⟨(i 0).val / 64, hlt⟩).2.2.2.2.2.2.2.2
  refine ⟨⟨(i 0).val / 64, hlt⟩, flush0_8 _, ?_⟩
  rw [mem_blk8]
  intro a
  match a with
  | ⟨0, _⟩ =>
    show win0_8.index ⟨(i 0).val / 64, hlt⟩ (0 : Fin 3) * 64 ≤ (i 0).val ∧ (i 0).val < win0_8.index ⟨(i 0).val / 64, hlt⟩ (0 : Fin 3) * 64 + 64
    rw [e0]; show (i 0).val / 64 * 64 ≤ (i 0).val ∧ (i 0).val < (i 0).val / 64 * 64 + 64; omega
  | ⟨1, _⟩ =>
    show win0_8.index ⟨(i 0).val / 64, hlt⟩ (1 : Fin 3) * 64 ≤ (i 1).val ∧ (i 1).val < win0_8.index ⟨(i 0).val / 64, hlt⟩ (1 : Fin 3) * 64 + 64
    rw [e1]; omega
  | ⟨2, _⟩ =>
    show win0_8.index ⟨(i 0).val / 64, hlt⟩ (2 : Fin 3) * 64 ≤ (i 2).val ∧ (i 2).val < win0_8.index ⟨(i 0).val / 64, hlt⟩ (2 : Fin 3) * 64 + 64
    rw [e2]; omega

theorem mem_blk7 (t : Fin cfg0.N) (i : S4096x64x64.Idx) :
    i ∈ ((cfg0.win 7).blk t).view.set ↔ ∀ a : Fin 3, win0_7.index t a * S64x64x64.size a ≤ (i a).val ∧ (i a).val < win0_7.index t a * S64x64x64.size a + S64x64x64.size a := by
  show i ∈ ((View.whole main_v6_1).slice (win0_7.rect t)).set ↔ _
  rw [View.set_slice_whole, Rect.mem_set_unit]
  exact Iff.rfl

theorem cover7 (c : Dev nD) (i : S4096x64x64.Idx) :
    ∃ t : Fin cfg0.N, (cfg0.win 7).flush t = true ∧ i ∈ ((cfg0.win 7).blk t).view.set := by
  have hi0 : (i 0).val < 4096 := (i 0).isLt
  have hi1 : (i 1).val < 64 := (i 1).isLt
  have hi2 : (i 2).val < 64 := (i 2).isLt
  have hN : grid0.N = 64 := N_0
  have hlt : (i 0).val / 64 < cfg0.N := by show (i 0).val / 64 < grid0.N; rw [hN]; omega
  obtain ⟨e0, e1, e2⟩ := (idx_facts ⟨(i 0).val / 64, hlt⟩).2.2.2.2.2.2.2.1
  refine ⟨⟨(i 0).val / 64, hlt⟩, flush0_7 _, ?_⟩
  rw [mem_blk7]
  intro a
  match a with
  | ⟨0, _⟩ =>
    show win0_7.index ⟨(i 0).val / 64, hlt⟩ (0 : Fin 3) * 64 ≤ (i 0).val ∧ (i 0).val < win0_7.index ⟨(i 0).val / 64, hlt⟩ (0 : Fin 3) * 64 + 64
    rw [e0]; show (i 0).val / 64 * 64 ≤ (i 0).val ∧ (i 0).val < (i 0).val / 64 * 64 + 64; omega
  | ⟨1, _⟩ =>
    show win0_7.index ⟨(i 0).val / 64, hlt⟩ (1 : Fin 3) * 64 ≤ (i 1).val ∧ (i 1).val < win0_7.index ⟨(i 0).val / 64, hlt⟩ (1 : Fin 3) * 64 + 64
    rw [e1]; omega
  | ⟨2, _⟩ =>
    show win0_7.index ⟨(i 0).val / 64, hlt⟩ (2 : Fin 3) * 64 ≤ (i 2).val ∧ (i 2).val < win0_7.index ⟨(i 0).val / 64, hlt⟩ (2 : Fin 3) * 64 + 64
    rw [e2]; omega

theorem mem_blk6 (t : Fin cfg0.N) (i : S4096x1x64.Idx) :
    i ∈ ((cfg0.win 6).blk t).view.set ↔ ∀ a : Fin 3, win0_6.index t a * S64x1x64.size a ≤ (i a).val ∧ (i a).val < win0_6.index t a * S64x1x64.size a + S64x1x64.size a := by
  show i ∈ ((View.whole main_v6_0).slice (win0_6.rect t)).set ↔ _
  rw [View.set_slice_whole, Rect.mem_set_unit]
  exact Iff.rfl

theorem cover6 (c : Dev nD) (i : S4096x1x64.Idx) :
    ∃ t : Fin cfg0.N, (cfg0.win 6).flush t = true ∧ i ∈ ((cfg0.win 6).blk t).view.set := by
  have hi0 : (i 0).val < 4096 := (i 0).isLt
  have hi1 : (i 1).val < 1 := (i 1).isLt
  have hi2 : (i 2).val < 64 := (i 2).isLt
  have hN : grid0.N = 64 := N_0
  have hlt : (i 0).val / 64 < cfg0.N := by show (i 0).val / 64 < grid0.N; rw [hN]; omega
  obtain ⟨e0, e1, e2⟩ := (idx_facts ⟨(i 0).val / 64, hlt⟩).2.2.2.2.2.2.1
  refine ⟨⟨(i 0).val / 64, hlt⟩, flush0_6 _, ?_⟩
  rw [mem_blk6]
  intro a
  match a with
  | ⟨0, _⟩ =>
    show win0_6.index ⟨(i 0).val / 64, hlt⟩ (0 : Fin 3) * 64 ≤ (i 0).val ∧ (i 0).val < win0_6.index ⟨(i 0).val / 64, hlt⟩ (0 : Fin 3) * 64 + 64
    rw [e0]; show (i 0).val / 64 * 64 ≤ (i 0).val ∧ (i 0).val < (i 0).val / 64 * 64 + 64; omega
  | ⟨1, _⟩ =>
    show win0_6.index ⟨(i 0).val / 64, hlt⟩ (1 : Fin 3) * 1 ≤ (i 1).val ∧ (i 1).val < win0_6.index ⟨(i 0).val / 64, hlt⟩ (1 : Fin 3) * 1 + 1
    rw [e1]; omega
  | ⟨2, _⟩ =>
    show win0_6.index ⟨(i 0).val / 64, hlt⟩ (2 : Fin 3) * 64 ≤ (i 2).val ∧ (i 2).val < win0_6.index ⟨(i 0).val / 64, hlt⟩ (2 : Fin 3) * 64 + 64
    rw [e2]; omega

/-! ## The result arrays after the last point -/

theorem final_grad (c : Dev nD) : (dats m 0 c).arrAt 8 cfg0.N = gradFlat m c :=
  (dats m 0 c).arrAt_eq_of_cover 8 (gradFlat m c) (fun t _ => flushed_grad m c t) (cover8 c)

theorem final_weight (c : Dev nD) : (dats m 0 c).arrAt 7 cfg0.N = weightFlat m c :=
  (dats m 0 c).arrAt_eq_of_cover 7 (weightFlat m c) (fun t _ => flushed_weight m c t) (cover7 c)

theorem final_out (c : Dev nD) : (dats m 0 c).arrAt 6 cfg0.N = outFlat m c :=
  (dats m 0 c).arrAt_eq_of_cover 6 (outFlat m c) (fun t _ => flushed_out m c t) (cover6 c)

end Cert.KernelIdeal.Arr

end
-- ==== Proof.KernelRun.lean ====
/-
  The idealized kernel's run, with its three results named.

  After the pallas call the program reshapes each flat result array back to [128, 32, ·, ·]; the flat array is the
  reshape of the specification's array, and reshaping there and back is the identity.  So every execution ends
  with the output, the new weights and the new gradient at the specification's three arrays of the arguments, and
  the arguments as they were.
-/
import proofs.«144095_j35210141892673_2_alg».proof.Proof.ArrayValues

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Body Cert.FastWeight Cert.Reshape

variable (m : (ℓ : Loc nD τ sig) → Buf (Elt Ideal) ℓ) (ρ : Dev nD → PrngReg)

theorem tail_grad (c : Dev nD) :
    Pipeline.afterTail₀ cfgs (dats m) 0 (V0 m) [hostOps1] c main_v9 = gradArr (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v9) = _
  after_results
  show shapeCast S128x32x64x64 (Pipeline.withArrays (cfgs 0).spec c (V0 m c) (fun w => (dats m 0 c).arrAt w (cfgs 0).N)
    (Proc.devRef .tc main_v6_2)) shapeCasts_S4096x64x64_S128x32x64x64 = _
  refine (congrArg (fun x => shapeCast S128x32x64x64 x shapeCasts_S4096x64x64_S128x32x64x64)
    ((Pipeline.withArrays_arr spec0 launch0.win.arr_inj c (V0 m c) (fun w => (dats m 0 c).arrAt w cfg0.N) 8).trans
      (final_grad m c))).trans ?_
  exact shapeCast_shapeCast _ _ _

theorem tail_weight (c : Dev nD) :
    Pipeline.afterTail₀ cfgs (dats m) 0 (V0 m) [hostOps1] c main_v8 = weightArr (m ((c : Thread nD τ).loc main_arg0)) (m ((c : Thread nD τ).loc main_arg1)) (m ((c : Thread nD τ).loc main_arg2)) (m ((c : Thread nD τ).loc main_arg3)) (m ((c : Thread nD τ).loc main_arg5)) := by
  unfold Pipeline.afterTail₀
  show StableHlo.after hostOps1 _ (Proc.devRef .tc main_v8) = _
  after_results
  show shapeCast S128x32x64x64 (Pipeline.withArrays (cfgs 0).spec c (V0 m c) (fun w => (dats m 0 c).arrAt w (cfgs 0).N)
    (Proc.devRef .tc main_v6_1)) shapeCasts_S4096x64x64_S128x32x64x64 = _
  refine (congrArg (fun x => shapeCast S128x32x64x64 x shapeCasts_S4096x64x64_S128x32x64x64)
    ((Pipeline.withArrays_arr spec0 launch0.win.arr_inj c (V0 m c) (fun w => (dats m 0 c).arrAt w cfg0.N) 7).trans
      (final_weight m c))).trans ?_
  exact shapeCast_shapeCast _ _ _

theorem tail_out (c : Dev nD) :
    Pipeline.afterTail₀ cfgs (dats m) 0 (V0 m) [hostOps1] c main_v7 = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v7) = _
  after_results
  show shapeCast S128x32x1x64 (Pipeline.withArrays (cfgs 0).spec c (V0 m c) (fun w => (dats m 0 c).arrAt w (cfgs 0).N)
    (Proc.devRef .tc main_v6_0)) shapeCasts_S4096x1x64_S128x32x1x64 = _
  refine (congrArg (fun x => shapeCast S128x32x1x64 x shapeCasts_S4096x1x64_S128x32x1x64)
    ((Pipeline.withArrays_arr spec0 launch0.win.arr_inj c (V0 m c) (fun w => (dats m 0 c).arrAt w cfg0.N) 6).trans
      (final_out m c))).trans ?_
  exact shapeCast_shapeCast _ _ _

/-- The run, read: the three results at the specification's arrays, the arguments unchanged. -/
theorem run : θ_run defs (onTc (τ := τ) (main (F := Ideal))) ⟨m, fun _ => 0, ρ⟩ fun r => ∀ c : Dev nD,
      r.2.mem ((c : Thread nD τ).loc main_v7) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v8) = weightArr (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_v9) = gradArr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v7 (Pipeline.mem_restRefs_of main_v7 (by decide) (by decide))).trans (tail_out m c),
      ((h c).2 main_v8 (Pipeline.mem_restRefs_of main_v8 (by decide) (by decide))).trans (tail_weight m c),
      ((h c).2 main_v9 (Pipeline.mem_restRefs_of main_v9 (by decide) (by decide))).trans (tail_grad m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Arr

end
-- ==== Proof.RefRead.lean ====
/-
  The reference computes the specification's three arrays.

  Read one operation at a time on the extended reals: the first contraction at (b, h, 0, d) is the sum over k of
  XB(b,h,0,k) · W(b,h,k,d); the second contracts the token axis, which has one element, so its sum is the single
  product XB(b,h,0,f) · z(b,h,0,d); the broadcast of the step size reads (b,h,0,0); the last contraction is the
  sum over k of XC(b,h,0,k) · W'(b,h,k,d).  These are the specification's formulas term for term.
-/
import proofs.«144095_j35210141892673_2_alg».proof.Defs
import proofs.«144095_j35210141892673_2_alg».proof.Proof.Gen.ReferenceIdeal.Run
import proofs.«144095_j35210141892673_2_alg».proof.Proof.Gen.ReferenceIdeal.Read
import proofs.«144095_j35210141892673_2_alg».proof.Proof.Spec
import proofs.«144095_j35210141892673_2_alg».proof.Proof.Reshape

noncomputable section

open Idealize.ShloMosaic Idealize.ShloMosaic.ValueIdx

namespace Cert.ReferenceIdeal.RefValue

open Cert.ReferenceIdeal Cert.ReferenceIdeal.Read Cert.FastWeight Cert.Reshape

variable (W G : (⟨S128x32x64x64, .f32⟩ : BufTy).Contents (Elt Ideal))
variable (XA XB XC : (⟨S128x32x1x64, .f32⟩ : BufTy).Contents (Elt Ideal))
variable (C : (⟨S128x32x1x1, .f32⟩ : BufTy).Contents (Elt Ideal))

/-! ## Where each operation reads its operands -/

theorem lidx0 (b : Fin 128) (h : Fin 32) (d k : Fin 64) : lidx_main_v0 (ix4 b h 0 d) k = ix4 b h 0 k :=
  funext fun a => Fin.ext (by match a with | ⟨0, _⟩ => rfl | ⟨1, _⟩ => rfl | ⟨2, _⟩ => rfl | ⟨3, _⟩ => rfl)

theorem ridx0 (b : Fin 128) (h : Fin 32) (d k : Fin 64) : ridx_main_v0 (ix4 b h 0 d) k = ix4 b h k d :=
  funext fun a => Fin.ext (by match a with | ⟨0, _⟩ => rfl | ⟨1, _⟩ => rfl | ⟨2, _⟩ => rfl | ⟨3, _⟩ => rfl)

theorem lidx2 (b : Fin 128) (h : Fin 32) (f d : Fin 64) (k : Fin 1) : lidx_main_v2 (ix4 b h f d) k = ix4 b h k f :=
  funext fun a => Fin.ext (by match a with | ⟨0, _⟩ => rfl | ⟨1, _⟩ => rfl | ⟨2, _⟩ => rfl | ⟨3, _⟩ => rfl)

theorem ridx2 (b : Fin 128) (h : Fin 32) (f d : Fin 64) (k : Fin 1) : ridx_main_v2 (ix4 b h f d) k = ix4 b h k d :=
  funext fun a => Fin.ext (by match a with | ⟨0, _⟩ => rfl | ⟨1, _⟩ => rfl | ⟨2, _⟩ => rfl | ⟨3, _⟩ => rfl)

theorem idx4 (b : Fin 128) (h : Fin 32) (f d : Fin 64) : idx_main_v4 (ix4 b h f d) = ix4 b h 0 0 :=
  funext fun a => Fin.ext (by match a with | ⟨0, _⟩ => rfl | ⟨1, _⟩ => rfl | ⟨2, _⟩ => rfl | ⟨3, _⟩ => rfl)

theorem lidx7 (b : Fin 128) (h : Fin 32) (d k : Fin 64) : lidx_main_v7 (ix4 b h 0 d) k = ix4 b h 0 k :=
  funext fun a => Fin.ext (by match a with | ⟨0, _⟩ => rfl | ⟨1, _⟩ => rfl | ⟨2, _⟩ => rfl | ⟨3, _⟩ => rfl)

theorem ridx7 (b : Fin 128) (h : Fin 32) (d k : Fin 64) : ridx_main_v7 (ix4 b h 0 d) k = ix4 b h k d :=
  funext fun a => Fin.ext (by match a with | ⟨0, _⟩ => rfl | ⟨1, _⟩ => rfl | ⟨2, _⟩ => rfl | ⟨3, _⟩ => rfl)

/-! ## The stages -/

/-- The prediction error at (b, h, 0, d). -/
theorem v1_apply (b : Fin 128) (h : Fin 32) (d : Fin 64) :
    val_main_v1 (F := Ideal) W XA XB (ix4 b h 0 d) = err W XA XB b h d := by
  rw [val_main_v1_apply, val_main_v0_apply]
  simp only [lidx0, ridx0]
  rfl

/-- The new gradient. -/
theorem v3_eq : val_main_v3 (F := Ideal) W G XA XB = gradArr W G XA XB := by
  refine ext_ix4 _ _ fun b h f d => ?_
  rw [val_main_v3_apply, val_main_v2_apply, Fin.sum_univ_one, lidx2, ridx2, v1_apply]
  rfl

/-- The new weights. -/
theorem v6_eq : val_main_v6 (F := Ideal) W G XA XB C = weightArr W G XA XB C := by
  refine ext_ix4 _ _ fun b h f d => ?_
  rw [val_main_v6_apply, val_main_v5_apply, val_main_v4_apply, idx4, v3_eq]
  rfl

/-- The output. -/
theorem v7_eq : val_main_v7 (F := Ideal) W G XA XB XC C = outArr W G XA XB XC C := by
  refine ext_ix4 _ _ fun b h c d => ?_
  obtain rfl : c = 0 := Subsingleton.elim _ _
  rw [val_main_v7_apply]
  simp only [lidx7, ridx7, v6_eq]
  rfl

end Cert.ReferenceIdeal.RefValue

end
-- ==== Proof.lean ====
/-
  The fast-weight decode step: a Pallas kernel against its jnp reference, equal over the extended reals.

  For every (batch, head) pair both programs compute, from the 64×64 weights W and gradient G, the rows xa, xb, xc
  and the step size c,

    z = xb·W − xa,   G' = G + xbᵀ z,   W' = W − c·G',   out = xc·W',

  and return (out, W', G').  The kernel does so 64 pairs at a time on a flattened leading axis, forming each
  contraction as a broadcast product summed over one axis; the reference uses three batched contractions, the
  middle one over a token axis of length one.  On the extended reals the sums are the same sums and every product
  and difference is taken of the same operands in the same order, so the results agree entry by entry with no
  assumption on the inputs: the finiteness precondition is not used.

  The kernel's value is read off its generated frame run (Proof/BodyPieces, BodyValues, ArrayValues, KernelRun),
  the reference's off its generated run (Proof/RefRead); both are the arrays of Proof/Spec.  The ideal pass
  rewrote nothing, so the kernel's idealization is its own text read on the extended reals.
-/
import proofs.«144095_j35210141892673_2_alg».proof.Defs
import proofs.«144095_j35210141892673_2_alg».proof.Proof.Gen.Kernel
import proofs.«144095_j35210141892673_2_alg».proof.Proof.Gen.Kernel.Frame
import proofs.«144095_j35210141892673_2_alg».proof.Proof.Gen.KernelIdeal
import proofs.«144095_j35210141892673_2_alg».proof.Proof.Gen.KernelIdeal.Frame
import proofs.«144095_j35210141892673_2_alg».proof.Proof.Gen.ReferenceIdeal
import proofs.«144095_j35210141892673_2_alg».proof.Proof.Gen.ReferenceIdeal.Run
import proofs.«144095_j35210141892673_2_alg».proof.Proof.Gen.ReferenceIdeal.Read
import proofs.«144095_j35210141892673_2_alg».proof.Proof.Gen.Pre_finite_inputs
import proofs.«144095_j35210141892673_2_alg».proof.Proof.KernelRun
import proofs.«144095_j35210141892673_2_alg».proof.Proof.RefRead
import Idealize.ShloMosaic.Adequacy
import Idealize.ShloMosaic.Init

noncomputable section

namespace Cert.Proof

open Idealize.ShloMosaic Idealize.SL.Sem Cert.FastWeight

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- The ideal pass rewrote no operation. -/
theorem preserves : Cert.preserves_Kernel_KernelIdeal := trivial

/-- Both runs end with the specification's three arrays of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => weightArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
    fun c => gradArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Arr.run m ρ, ?_⟩
  refine (θ_run Cert.ReferenceIdeal.defs _ _).mono (fun _ h c => ?_) (Cert.ReferenceIdeal.Value.run (F := Ideal) m' ρ')
  obtain ⟨h7, h6, h3, hargs⟩ := h c
  obtain ⟨a0, a1, a2, a3, a4, a5⟩ := hagree c
  refine ⟨h7.trans ?_, h6.trans ?_, h3.trans ?_, hargs⟩
  · rw [Cert.ReferenceIdeal.Read.val_main_v7_eq, Cert.ReferenceIdeal.RefValue.v7_eq, a0, a1, a2, a3, a4, a5]
  · rw [Cert.ReferenceIdeal.Read.val_main_v6_eq, Cert.ReferenceIdeal.RefValue.v6_eq, a0, a1, a2, a3, a5]
  · rw [Cert.ReferenceIdeal.Read.val_main_v3_eq, Cert.ReferenceIdeal.RefValue.v3_eq, a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
